-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S512x16 : Shape := ⟨2, ![512, 16]⟩
abbrev S16x128 : Shape := ⟨2, ![16, 128]⟩
abbrev S128x16 : Shape := ⟨2, ![128, 16]⟩
abbrev S16x512 : Shape := ⟨2, ![16, 512]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16x128 : S_.BroadcastsInDim S16x128 (![] : Fin 0 → Fin S16x128.rank)
  reducesTo_S16x128_S_d0_1 : S16x128.ReducesTo [0, 1] S_
  bcast_S_S128x16 : S_.BroadcastsInDim S128x16 (![] : Fin 0 → Fin S128x16.rank)
  reducesTo_S128x16_S_d0_1 : S128x16.ReducesTo [0, 1] S_
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_arg4 : FVec F S16x512 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16x512 .f32 := Host.absf main_arg4
  let main_cst_6 : FVec F S_ .f32 := constant S_ .f32 0x7F800000#32
  let main_v20 : FVec F S16x512 .f32 := broadcastInDim S16x512 ![] bcast_S_S16x512 main_cst_6
  let main_v21 : IVec S16x512 1 := cmpf .olt main_v19 main_v20
  let main_c_7 : IVec S_ 1 := constantI S_ 1 1#1
  let main_v22 : IVec S_ 1 := (fun x v => Host.reduce IntOp.andi x v reducesTo_S16x512_S_d0_1 h_S_) main_v21 main_c_7
  let main_v23 : IVec S_ 1 := andi main_v18 main_v22
  main_v23

def fn {F : FTy → Type} [FloatOps F] (main_arg0 : FVec F S524288x128 .f32) (main_arg1 : FVec F S512x16 .f32) (main_arg2 : FVec F S16x128 .f32) (main_arg3 : FVec F S128x16 .f32) (main_arg4 : FVec F S16x512 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_v13 main_v16
-- ==== Kernel.lean ====
abbrev S524288x128 : Shape := ⟨2, ![524288, 128]⟩
abbrev S512x16 : Shape := ⟨2, ![512, 16]⟩
abbrev S16x128 : Shape := ⟨2, ![16, 128]⟩
abbrev S128x16 : Shape := ⟨2, ![128, 16]⟩
abbrev S16x512 : Shape := ⟨2, ![16, 512]⟩
abbrev S128x512 : Shape := ⟨2, ![128, 512]⟩
abbrev S512x128 : Shape := ⟨2, ![512, 128]⟩
abbrev S4096x128 : Shape := ⟨2, ![4096, 128]⟩
abbrev S4096x512 : Shape := ⟨2, ![4096, 512]⟩

abbrev nBuf : Space → Nat
  | .hbm => 14
  | .vmem => 6
  | .smem => 0
  | _ => 0

abbrev bufTy : (tb : Table) → Fin (tcTables nBuf tb) → BufTy
  | .hbm, ⟨0, _⟩ => ⟨S524288x128, .f32⟩
  | .hbm, ⟨1, _⟩ => ⟨S512x16, .f32⟩
  | .hbm, ⟨2, _⟩ => ⟨S16x128, .f32⟩
  | .hbm, ⟨3, _⟩ => ⟨S128x16, .f32⟩
  | .hbm, ⟨4, _⟩ => ⟨S16x512, .f32⟩
  | .hbm, ⟨5, _⟩ => ⟨S128x16, .f32⟩
  | .hbm, ⟨6, _⟩ => ⟨S16x512, .f32⟩
  | .hbm, ⟨7, _⟩ => ⟨S128x512, .f32⟩
  | .hbm, ⟨8, _⟩ => ⟨S128x512, .bf16⟩
  | .hbm, ⟨9, _⟩ => ⟨S512x16, .f32⟩
  | .hbm, ⟨10, _⟩ => ⟨S16x128, .f32⟩
  | .hbm, ⟨11, _⟩ => ⟨S512x128, .f32⟩
  | .hbm, ⟨12, _⟩ => ⟨S512x128, .bf16⟩
  | .hbm, ⟨13, _⟩ => ⟨S524288x128, .f32⟩
  | .local _ .vmem, ⟨0, _⟩ => ⟨S4096x128, .f32⟩
  | .local _ .vmem, ⟨1, _⟩ => ⟨S4096x128, .f32⟩
  | .local _ .vmem, ⟨2, _⟩ => ⟨S128x512, .bf16⟩
  | .local _ .vmem, ⟨3, _⟩ => ⟨S512x128, .bf16⟩
  | .local _ .vmem, ⟨4, _⟩ => ⟨S4096x128, .f32⟩
  | .local _ .vmem, ⟨5, _⟩ => ⟨S4096x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x128_S128x16_1_0 : S16x128.Transposes [1, 0] S128x16
  transposes_S512x16_S16x512_1_0 : S512x16.Transposes [1, 0] S16x512
  bitsLt_bf16_f32 : FTy.bits .bf16 < FTy.bits .f32
  transposes_S16x512_S512x16_1_0 : S16x512.Transposes [1, 0] S512x16
  transposes_S128x16_S16x128_1_0 : S128x16.Transposes [1, 0] S16x128
  inb_S4096x128_S4096x128_0_0 : ∀ a, (![0, 0] : Fin 2 → Nat) a + S4096x128.size a ≤ S4096x128.size a
  h_S4096x128 : 0 < S4096x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  dot_S128x16_S16x512_S128x512_1_0_0_1_n_n_wf : DotDims.WF S128x16 S16x512 S128x512 [1] [0] [0] [1] [] []
  dot_S512x16_S16x128_S512x128_1_0_0_1_n_n_wf : DotDims.WF S512x16 S16x128 S512x128 [1] [0] [0] [1] [] []
  dot_S4096x128_S128x512_S4096x512_1_0_0_1_n_n_wf : DotDims.WF S4096x128 S128x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S524288x128.size a
  hwx0_3 : ∀ i : grid0.Coords, EltTy.bits .f32 = 32 ∨ (Rect.block (s := S524288x128) S4096x128.size (cc0_transform_3 i) (hinb0_3 i)).WholeWords (EltTy.packing .f32)

variable [Facts₀]

def dot_S128x16_S16x512_S128x512_1_0_0_1_n_n : DotDims S128x16 S16x512 S128x512 where
  lhsContracting := [1]
  rhsContracting := [0]
  lhsNonContracting := [0]
  rhsNonContracting := [1]
  lhsBatch := []
  rhsBatch := []
  wf := dot_S128x16_S16x512_S128x512_1_0_0_1_n_n_wf
def dot_S512x16_S16x128_S512x128_1_0_0_1_n_n : DotDims S512x16 S16x128 S512x128 where
  lhsContracting := [1]
  rhsContracting := [0]
  lhsNonContracting := [0]
  rhsNonContracting := [1]
  lhsBatch := []
  rhsBatch := []
  wf := dot_S512x16_S16x128_S512x128_1_0_0_1_n_n_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x128 : Shape := ⟨2, ![524288, 128]⟩
abbrev S512x16 : Shape := ⟨2, ![512, 16]⟩
abbrev S16x128 : Shape := ⟨2, ![16, 128]⟩
abbrev S128x16 : Shape := ⟨2, ![128, 16]⟩
abbrev S16x512 : Shape := ⟨2, ![16, 512]⟩
abbrev S512x128 : Shape := ⟨2, ![512, 128]⟩
abbrev S128x512 : Shape := ⟨2, ![128, 512]⟩
abbrev S524288x512 : Shape := ⟨2, ![524288, 512]⟩

abbrev nBuf : Space → Nat
  | .hbm => 12
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S512x16, .f32⟩
  | .hbm, ⟨2, _⟩ => ⟨S16x128, .f32⟩
  | .hbm, ⟨3, _⟩ => ⟨S128x16, .f32⟩
  | .hbm, ⟨4, _⟩ => ⟨S16x512, .f32⟩
  | .hbm, ⟨5, _⟩ => ⟨S512x128, .f32⟩
  | .hbm, ⟨6, _⟩ => ⟨S128x512, .f32⟩
  | .hbm, ⟨7, _⟩ => ⟨S524288x512, .f32⟩
  | .hbm, ⟨8, _⟩ => ⟨S524288x512, .f32⟩
  | .hbm, ⟨9, _⟩ => ⟨S128x512, .f32⟩
  | .hbm, ⟨10, _⟩ => ⟨S512x128, .f32⟩
  | .hbm, ⟨11, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  transposes_S512x128_S128x512_1_0 : S512x128.Transposes [1, 0] S128x512
  transposes_S128x512_S512x128_1_0 : S128x512.Transposes [1, 0] S512x128
  dot_S512x16_S16x128_S512x128_1_0_0_1_n_n_wf : DotDims.WF S512x16 S16x128 S512x128 [1] [0] [0] [1] [] []
  dot_S524288x128_S128x512_S524288x512_1_0_0_1_n_n_wf : DotDims.WF S524288x128 S128x512 S524288x512 [1] [0] [0] [1] [] []
  dot_S128x16_S16x512_S128x512_1_0_0_1_n_n_wf : DotDims.WF S128x16 S16x512 S128x512 [1] [0] [0] [1] [] []
  dot_S524288x512_S512x128_S524288x128_1_0_0_1_n_n_wf : DotDims.WF S524288x512 S512x128 S524288x128 [1] [0] [0] [1] [] []

variable [Facts₀]

def dot_S512x16_S16x128_S512x128_1_0_0_1_n_n : DotDims S512x16 S16x128 S512x128 where
  lhsContracting := [1]
  rhsContracting := [0]
  lhsNonContracting := [0]
  rhsNonContracting := [1]
  lhsBatch := []
  rhsBatch := []
  wf := dot_S512x16_S16x128_S512x128_1_0_0_1_n_n_wf
def dot_S524288x128_S128x512_S524288x512_1_0_0_1_n_n : DotDims S524288x128 S128x512 S524288x512 where
  lhsContracting := [1]
  rhsContracting := [0]
  lhsNonContracting := [0]
  rhsNonContracting := [1]
  lhsBatch := []
  rhsBatch := []
  wf := dot_S524288x128_S128x512_S524288x512_1_0_0_1_n_n_wf
def dot_S128x16_S16x512_S128x512_1_0_0_1_n_n : DotDims S128x16 S16x512 S128x512 where
  lhsContracting := [1]
  rhsContracting := [0]
  lhsNonContracting := [0]
  rhsNonContracting := [1]
  lhsBatch := []
  rhsBatch := []
  wf := dot_S128x16_S16x512_S128x512_1_0_0_1_n_n_wf
def dot_S524288x512_S512x128_S524288x128_1_0_0_1_n_n : DotDims S524288x512 S512x128 S524288x128 where
  lhsContracting := [1]
  rhsContracting := [0]
  lhsNonContracting := [0]
  rhsNonContracting := [1]
  lhsBatch := []
  rhsBatch := []
  wf := dot_S524288x512_S512x128_S524288x128_1_0_0_1_n_n_wf

class Facts : Prop extends Facts₀ where

variable [Facts]
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.LoraSpec.lean ====
/-
  The two-layer perceptron with low-rank weights, as one function of its five argument arrays.

  The arguments are a batch `x` of 524288 rows of 128 features and four thin factors: `A1` (512 × 16), `B1` (16 × 128),
  `A2` (128 × 16), `B2` (16 × 512). The first layer's weight is the rank-16 product `A1 · B1` (512 × 128), the second
  layer's `A2 · B2` (128 × 512). A row `b` of the batch is sent to its 512 hidden values `∑ i, x b i · (A1 · B1) h i`,
  each hidden value is squared, and output `o` of the row is `∑ h, hidden² b h · (A2 · B2) o h`.

  Everything is over the extended reals with the exact operations; only sums and products occur, so no side condition on
  the entries is needed anywhere: every identity used later is commutativity of the product under a sum.
-/
import Idealize.ShloMosaic.Lib.ValueIdx
import Idealize.ShloMosaic.PureOps.Ideal

noncomputable section

namespace Cert.LoraMlp

open Idealize.ShloMosaic Idealize.ShloMosaic.ValueIdx

/-- Entry `(h, i)` of the first layer's weight `A1 · B1`: the sum over the 16 ranks. -/
def weight1 (A1 : (⟨2, ![512, 16]⟩ : Shape).Idx → EReal) (B1 : (⟨2, ![16, 128]⟩ : Shape).Idx → EReal)
    (h : Fin 512) (i : Fin 128) : EReal :=
  ∑ r : Fin 16, A1 (ix2 h r) * B1 (ix2 r i)

/-- Entry `(o, h)` of the second layer's weight `A2 · B2`: the sum over the 16 ranks. -/
def weight2 (A2 : (⟨2, ![128, 16]⟩ : Shape).Idx → EReal) (B2 : (⟨2, ![16, 512]⟩ : Shape).Idx → EReal)
    (o : Fin 128) (h : Fin 512) : EReal :=
  ∑ r : Fin 16, A2 (ix2 o r) * B2 (ix2 r h)

/-- Hidden value `h` of batch row `b`: the row against row `h` of the first weight. -/
def hidden (x : (⟨2, ![524288, 128]⟩ : Shape).Idx → EReal) (A1 : (⟨2, ![512, 16]⟩ : Shape).Idx → EReal)
    (B1 : (⟨2, ![16, 128]⟩ : Shape).Idx → EReal) (b : Fin 524288) (h : Fin 512) : EReal :=
  ∑ i : Fin 128, x (ix2 b i) * weight1 A1 B1 h i

/-- Output `o` of batch row `b`: the squared hidden values against row `o` of the second weight. -/
def outAt (x : (⟨2, ![524288, 128]⟩ : Shape).Idx → EReal) (A1 : (⟨2, ![512, 16]⟩ : Shape).Idx → EReal)
    (B1 : (⟨2, ![16, 128]⟩ : Shape).Idx → EReal) (A2 : (⟨2, ![128, 16]⟩ : Shape).Idx → EReal)
    (B2 : (⟨2, ![16, 512]⟩ : Shape).Idx → EReal) (b : Fin 524288) (o : Fin 128) : EReal :=
  ∑ h : Fin 512, (hidden x A1 B1 b h * hidden x A1 B1 b h) * weight2 A2 B2 o h

/-- The whole result array, index by index. -/
def mlp (x : (⟨2, ![524288, 128]⟩ : Shape).Idx → EReal) (A1 : (⟨2, ![512, 16]⟩ : Shape).Idx → EReal)
    (B1 : (⟨2, ![16, 128]⟩ : Shape).Idx → EReal) (A2 : (⟨2, ![128, 16]⟩ : Shape).Idx → EReal)
    (B2 : (⟨2, ![16, 512]⟩ : Shape).Idx → EReal) : (⟨2, ![524288, 128]⟩ : Shape).Idx → EReal :=
  fun j => outAt x A1 B1 A2 B2 (j 0) (j 1)

/-- At the index built from a row and an output it is that row's output. -/
theorem mlp_ix2 (x : (⟨2, ![524288, 128]⟩ : Shape).Idx → EReal) (A1 : (⟨2, ![512, 16]⟩ : Shape).Idx → EReal)
    (B1 : (⟨2, ![16, 128]⟩ : Shape).Idx → EReal) (A2 : (⟨2, ![128, 16]⟩ : Shape).Idx → EReal)
    (B2 : (⟨2, ![16, 512]⟩ : Shape).Idx → EReal) (b : Fin 524288) (o : Fin 128) :
    mlp x A1 B1 A2 B2 (ix2 b o) = outAt x A1 B1 A2 B2 b o := rfl

end Cert.LoraMlp

end
-- ==== Proof.LoraBody.lean ====
/-
  What the kernel's body stores, read at an index of its block.

  At a grid point the body holds a block of 4096 batch rows `xb` (4096 × 128) and the two whole weight arrays as the
  host prepared them, `u` (128 × 512) and `v` (512 × 128). It multiplies the rows by `u` into a zero accumulator,
  squares the 4096 × 512 result entry by entry, and multiplies that by `v` into a zero accumulator; the changes of float
  format on the way are the identity on the extended reals and the two shape casts are between equal shapes. So the
  stored value at `(p, o)` is `∑ h, (∑ i, xb p i · u i h)² · v h o`, each product a plain sum over its one contracted
  coordinate.
-/
import proofs.«175421_j58978490908683_2_alg».proof.Proof.Gen.KernelIdeal.Skeleton
import proofs.«175421_j58978490908683_2_alg».proof.Proof.LibPlainDot
import proofs.«175421_j58978490908683_2_alg».proof.Proof.LoraSpec
import Idealize.ShloMosaic.Lib.Pipeline.Value

noncomputable section

namespace Cert.LoraMlp.Body

open Cert.KernelIdeal Cert.KernelIdeal.Gen Idealize.ShloMosaic Idealize.ShloMosaic.ValueIdx

/-- The first product of the body at `(p, h)`: row `p` of the block against column `h` of the first weight array. -/
theorem hidden_at (xb : FVec Ideal S4096x128 .f32) (u : FVec Ideal S128x512 .bf16) (p : Fin 4096) (h : Fin 512) :
    matmul dot_S4096x128_S128x512_S4096x512_1_0_0_1_n_n none (truncf .bf16 xb bitsLt_bf16_f32)
        (shapeCast S128x512 u shapeCasts_S128x512_S128x512) (constant S4096x512 .f32 0x00000000#32) (ix2 p h)
      = ∑ i : Fin 128, xb (ix2 p i) * u (ix2 i h) := by
  rw [shapeCast_self]
  exact Cert.PlainDot.matmul_plain_apply none (truncf .bf16 xb bitsLt_bf16_f32) u p h

/-- THE STORED VALUE at `(p, o)`: the squared first products of row `p` against column `o` of the second weight array. -/
theorem payload_at (xb : FVec Ideal S4096x128 .f32) (u : FVec Ideal S128x512 .bf16) (v : FVec Ideal S512x128 .bf16)
    (p : Fin 4096) (o : Fin 128) :
    k0_pay1 (F := Ideal) xb u v (ix2 p o)
      = ∑ h : Fin 512, ((∑ i : Fin 128, xb (ix2 p i) * u (ix2 i h)) * (∑ i : Fin 128, xb (ix2 p i) * u (ix2 i h)))
          * v (ix2 h o) := by
  unfold k0_pay1
  rw [shapeCast_self v]
  refine (Cert.PlainDot.matmul_plain_apply none _ v p o).trans ?_
  refine Finset.sum_congr rfl fun h _ => ?_
  refine congrArg (· * v (ix2 h o)) ?_
  have e := hidden_at xb u p h
  exact congrArg₂ (· * ·) e e

/-- A BLOCK OF THE PERCEPTRON. If the block's rows are rows `row p` of a batch `x`, and the two weight arrays hold the
    transposed weights `(A1 · B1)ᵀ` and `(A2 · B2)ᵀ`, then the stored value at `(p, o)` is the perceptron of `x` at
    `(row p, o)`: the two sides are the same sum over the hidden index of the same products. -/
theorem block_value (x : (⟨2, ![524288, 128]⟩ : Shape).Idx → EReal) (A1 : (⟨2, ![512, 16]⟩ : Shape).Idx → EReal)
    (B1 : (⟨2, ![16, 128]⟩ : Shape).Idx → EReal) (A2 : (⟨2, ![128, 16]⟩ : Shape).Idx → EReal)
    (B2 : (⟨2, ![16, 512]⟩ : Shape).Idx → EReal)
    (xb : FVec Ideal S4096x128 .f32) (u : FVec Ideal S128x512 .bf16) (v : FVec Ideal S512x128 .bf16)
    (row : Fin 4096 → Fin 524288)
    (hx : ∀ (p : Fin 4096) (i : Fin 128), xb (ix2 p i) = x (ix2 (row p) i))
    (hu : ∀ (i : Fin 128) (h : Fin 512), u (ix2 i h) = weight1 A1 B1 h i)
    (hv : ∀ (h : Fin 512) (o : Fin 128), v (ix2 h o) = weight2 A2 B2 o h)
    (p : Fin 4096) (o : Fin 128) :
    k0_pay1 (F := Ideal) xb u v (ix2 p o) = mlp x A1 B1 A2 B2 (ix2 (row p) o) := by
  rw [payload_at, mlp_ix2]
  unfold outAt hidden
  refine Finset.sum_congr rfl fun h _ => ?_
  have e : (∑ i : Fin 128, xb (ix2 p i) * u (ix2 i h)) = ∑ i : Fin 128, x (ix2 (row p) i) * weight1 A1 B1 h i :=
    Finset.sum_congr rfl fun i _ => by rw [hx, hu]
  rw [e, hv]

end Cert.LoraMlp.Body

end
-- ==== Proof.LoraWeights.lean ====
/-
  The two weight arrays as the host prepares them for the kernel.

  Before the kernel is launched the host forms the first layer's weight already transposed, as the product of the two
  transposed factors `B1ᵀ · A1ᵀ` (128 × 512), and likewise the second layer's as `B2ᵀ · A2ᵀ` (512 × 128); the change
  of float format that follows is the identity on the extended reals. Entry `(i, h)` of the first is
  `∑ r, B1 r i · A1 h r`: the factors of each term of `(A1 · B1) h i` in the other order. That one use of the
  commutativity of the product is all that separates the kernel's arithmetic from the reference's.
-/
import proofs.«175421_j58978490908683_2_alg».proof.Proof.Gen.KernelIdeal
import proofs.«175421_j58978490908683_2_alg».proof.Proof.LibPlainDot
import proofs.«175421_j58978490908683_2_alg».proof.Proof.LoraSpec
import Idealize.ShloMosaic.Lib.Pipeline.Value

noncomputable section

namespace Cert.LoraMlp.Weights

open Cert.KernelIdeal Cert.KernelIdeal.Gen Idealize.ShloMosaic Idealize.ShloMosaic.ValueIdx

/-- The first weight array as the kernel receives it: `B1ᵀ · A1ᵀ`, 128 × 512. -/
def prepared1 (A1 : FVec Ideal S512x16 .f32) (B1 : FVec Ideal S16x128 .f32) : FVec Ideal S128x512 .bf16 :=
  truncf .bf16 (Host.dotGeneral (F := Ideal) dot_S128x16_S16x512_S128x512_1_0_0_1_n_n none
    (transpose S128x16 [1, 0] B1 transposes_S16x128_S128x16_1_0)
    (transpose S16x512 [1, 0] A1 transposes_S512x16_S16x512_1_0)) bitsLt_bf16_f32

/-- The second weight array as the kernel receives it: `B2ᵀ · A2ᵀ`, 512 × 128. -/
def prepared2 (A2 : FVec Ideal S128x16 .f32) (B2 : FVec Ideal S16x512 .f32) : FVec Ideal S512x128 .bf16 :=
  truncf .bf16 (Host.dotGeneral (F := Ideal) dot_S512x16_S16x128_S512x128_1_0_0_1_n_n none
    (transpose S512x16 [1, 0] B2 transposes_S16x512_S512x16_1_0)
    (transpose S16x128 [1, 0] A2 transposes_S128x16_S16x128_1_0)) bitsLt_bf16_f32

/-- Entry `(i, h)` of the first prepared array is entry `(h, i)` of `A1 · B1`. -/
theorem prepared1_at (A1 : FVec Ideal S512x16 .f32) (B1 : FVec Ideal S16x128 .f32) (i : Fin 128) (h : Fin 512) :
    prepared1 A1 B1 (ix2 i h) = weight1 A1 B1 h i := by
  unfold prepared1 weight1
  rw [truncf_apply]
  refine (Cert.PlainDot.dotGeneral_plain_apply none .single _ _ i h).trans ?_
  refine Finset.sum_congr rfl fun r _ => ?_
  rw [transpose_apply [1, 0] B1 transposes_S16x128_S128x16_1_0 (ix2 i r) (ix2 r i)
        (fun b => match b with | ⟨0, _⟩ => rfl | ⟨1, _⟩ => rfl),
      transpose_apply [1, 0] A1 transposes_S512x16_S16x512_1_0 (ix2 r h) (ix2 h r)
        (fun b => match b with | ⟨0, _⟩ => rfl | ⟨1, _⟩ => rfl)]
  exact mul_comm _ _

/-- Entry `(h, o)` of the second prepared array is entry `(o, h)` of `A2 · B2`. -/
theorem prepared2_at (A2 : FVec Ideal S128x16 .f32) (B2 : FVec Ideal S16x512 .f32) (h : Fin 512) (o : Fin 128) :
    prepared2 A2 B2 (ix2 h o) = weight2 A2 B2 o h := by
  unfold prepared2 weight2
  rw [truncf_apply]
  refine (Cert.PlainDot.dotGeneral_plain_apply none .single _ _ h o).trans ?_
  refine Finset.sum_congr rfl fun r _ => ?_
  rw [transpose_apply [1, 0] B2 transposes_S16x512_S512x16_1_0 (ix2 h r) (ix2 r h)
        (fun b => match b with | ⟨0, _⟩ => rfl | ⟨1, _⟩ => rfl),
      transpose_apply [1, 0] A2 transposes_S128x16_S16x128_1_0 (ix2 r o) (ix2 o r)
        (fun b => match b with | ⟨0, _⟩ => rfl | ⟨1, _⟩ => rfl)]
  exact mul_comm _ _

end Cert.LoraMlp.Weights

end
-- ==== Proof.LoraEntry.lean ====
/-
  What the kernel finds in its two weight windows' arrays when it is launched.

  The eight host operations before the launch transpose the four factors, multiply `B1ᵀ · A1ᵀ` and `B2ᵀ · A2ᵀ`, and
  change the float format of the two products. So the array the second window stages holds the first prepared weight
  array of the launch contents of `A1`, `B1`, and the array the third window stages the second one of `A2`, `B2`.
-/
import proofs.«175421_j58978490908683_2_alg».proof.Proof.Gen.KernelIdeal.Frame
import proofs.«175421_j58978490908683_2_alg».proof.Proof.LoraWeights
import Idealize.ShloMosaic.Lib.StableHlo.Run

noncomputable section

namespace Cert.LoraMlp.Entry

open Cert.KernelIdeal Cert.KernelIdeal.Gen Idealize.ShloMosaic Idealize.ShloMosaic.TcCoe Idealize.SL.Sem
open Idealize.ShloMosaic.StableHlo Cert.LoraMlp.Weights

variable (m : (ℓ : Loc nD τ sig) → Buf (Elt Ideal) ℓ)

/-- At the launch the first weight window's array is `B1ᵀ · A1ᵀ` of the launch contents. -/
theorem entry_prepared1 (c : Dev nD) :
    (V m c main_v3 : S128x512.Idx → EReal)
      = prepared1 (m ((c : Thread nD τ).loc main_arg1)) (m ((c : Thread nD τ).loc main_arg2)) := by
  dsimp only [V, hostOps0]
  after_results
  rfl

/-- At the launch the second weight window's array is `B2ᵀ · A2ᵀ` of the launch contents. -/
theorem entry_prepared2 (c : Dev nD) :
    (V m c main_v7 : S512x128.Idx → EReal)
      = prepared2 (m ((c : Thread nD τ).loc main_arg3)) (m ((c : Thread nD τ).loc main_arg4)) := by
  dsimp only [V, hostOps0]
  after_results
  rfl

end Cert.LoraMlp.Entry

end
-- ==== Proof.LoraBlocks.lean ====
/-
  From the blocks to the whole result array.

  The grid has 128 points; point `t` works on batch rows `4096·t … 4096·t + 4095`, reads the two weight arrays whole,
  and writes back rows `4096·t … 4096·t + 4095` of the result. By the per-block lemma each written block is that block
  of the perceptron of the launch contents, and the 128 blocks tile the 524288 rows, so after the run the result array
  is the perceptron of the five argument arrays.
-/
import proofs.«175421_j58978490908683_2_alg».proof.Proof.Gen.KernelIdeal.Value
import proofs.«175421_j58978490908683_2_alg».proof.Proof.LoraBody
import proofs.«175421_j58978490908683_2_alg».proof.Proof.LoraEntry

noncomputable section

namespace Cert.LoraMlp.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the batch window and the result window sit at block `t` of the rows, the two
    weight windows at their one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `4096·t + p` of the batch. -/
def rowOf (t : Fin cfg0.N) (p : Fin 4096) : Fin 524288 :=
  ⟨t.val * 4096 + p.val, by have h : cfg0.N = 128 := N_0; have := t.isLt; have := p.isLt; omega⟩

/-- The batch window's block at point `t`, read at `(p, i)`, is the launch contents of the batch at `(4096·t + p, i)`. -/
theorem batch_block (c : Dev nD) (t : Fin cfg0.N) (p : Fin 4096) (i : Fin 128) :
    (iblk m c 0 t : Vec Ideal S4096x128 .f32) (ix2 p i)
      = (m ((c : Thread nD τ).loc main_arg0) : S524288x128.Idx → EReal) (ix2 (rowOf t p) i) := by
  obtain ⟨e0, e1, -⟩ := index_facts t
  show V m c main_arg0 (((cfg0.win 0).blk t).view.emb (ix2 p i)) = _
  rw [V_main_arg0]
  refine congrArg _ (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 128 + 1 * i.val = i.val; rw [e1]; omega

/-- The first weight window's block at any point is the whole first prepared array. -/
theorem weight1_block (c : Dev nD) (t : Fin cfg0.N) (i : Fin 128) (h : Fin 512) :
    (iblk m c 1 t : Vec Ideal S128x512 .bf16) (ix2 i h)
      = LoraMlp.weight1 (m ((c : Thread nD τ).loc main_arg1)) (m ((c : Thread nD τ).loc main_arg2)) h i := by
  obtain ⟨-, -, e0, e1, -⟩ := index_facts t
  have hpos : ((cfg0.win 1).blk t).view.emb (ix2 i h) = (ix2 i h : S128x512.Idx) := by
    funext a; apply Fin.ext
    match a with
    | ⟨0, _⟩ => show win0_1.index t (0 : Fin 2) * 128 + 1 * i.val = i.val; rw [e0]; omega
    | ⟨1, _⟩ => show win0_1.index t (1 : Fin 2) * 512 + 1 * h.val = h.val; rw [e1]; omega
  show V m c main_v3 (((cfg0.win 1).blk t).view.emb (ix2 i h)) = _
  rw [hpos, Entry.entry_prepared1 m c, Weights.prepared1_at]

/-- The second weight window's block at any point is the whole second prepared array. -/
theorem weight2_block (c : Dev nD) (t : Fin cfg0.N) (h : Fin 512) (o : Fin 128) :
    (iblk m c 2 t : Vec Ideal S512x128 .bf16) (ix2 h o)
      = LoraMlp.weight2 (m ((c : Thread nD τ).loc main_arg3)) (m ((c : Thread nD τ).loc main_arg4)) o h := by
  obtain ⟨-, -, -, -, e0, e1, -⟩ := index_facts t
  have hpos : ((cfg0.win 2).blk t).view.emb (ix2 h o) = (ix2 h o : S512x128.Idx) := by
    funext a; apply Fin.ext
    match a with
    | ⟨0, _⟩ => show win0_2.index t (0 : Fin 2) * 512 + 1 * h.val = h.val; rw [e0]; omega
    | ⟨1, _⟩ => show win0_2.index t (1 : Fin 2) * 128 + 1 * o.val = o.val; rw [e1]; omega
  show V m c main_v7 (((cfg0.win 2).blk t).view.emb (ix2 h o)) = _
  rw [hpos, Entry.entry_prepared2 m c, Weights.prepared2_at]

/-- The perceptron of the launch contents of the five arguments on core `c`. -/
abbrev result (c : Dev nD) : S524288x128.Idx → EReal :=
  LoraMlp.mlp (m ((c : Thread nD τ).loc main_arg0)) (m ((c : Thread nD τ).loc main_arg1))
    (m ((c : Thread nD τ).loc main_arg2)) (m ((c : Thread nD τ).loc main_arg3)) (m ((c : Thread nD τ).loc main_arg4))

/-- WHAT POINT `t` WRITES BACK is block `t` of the perceptron. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero_offsets]
  simp only [View.ld_unit_zero (S := S4096x128) zero_offsets, View.ld_unit_zero (S := S128x512) zero_offsets,
    View.ld_unit_zero (S := S512x128) zero_offsets]
  obtain ⟨-, -, -, -, -, -, e0, e1⟩ := index_facts t
  funext j
  obtain ⟨p, o, rfl⟩ : ∃ (p : Fin 4096) (o : Fin 128), j = ix2 p o := ⟨j 0, j 1, eq_ix2 j⟩
  have hpos : ((cfg0.win 3).blk t).view.emb (ix2 p o) = (ix2 (rowOf t p) o : S524288x128.Idx) := by
    funext a; apply Fin.ext
    match a with
    | ⟨0, _⟩ => show win0_3.index t (0 : Fin 2) * 4096 + 1 * p.val = t.val * 4096 + p.val; rw [e0]; omega
    | ⟨1, _⟩ => show win0_3.index t (1 : Fin 2) * 128 + 1 * o.val = o.val; rw [e1]; omega
  show k0_pay1 (F := Ideal) (iblk m c 0 t) (iblk m c 1 t) (iblk m c 2 t) (ix2 p o)
    = result m c (((cfg0.win 3).blk t).view.emb (ix2 p o))
  rw [hpos]
  exact Body.block_value (m ((c : Thread nD τ).loc main_arg0)) (m ((c : Thread nD τ).loc main_arg1))
    (m ((c : Thread nD τ).loc main_arg2)) (m ((c : Thread nD τ).loc main_arg3)) (m ((c : Thread nD τ).loc main_arg4))
    (iblk m c 0 t) (iblk m c 1 t) (iblk m c 2 t) (rowOf t)
    (batch_block m c t) (weight1_block m c t) (weight2_block m c t) p o

/-- An index of the result array is in point `t`'s block iff each coordinate is in the block's range on its axis. -/
theorem mem_block (t : Fin cfg0.N) (i : S524288x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v8).slice (win0_3.rect t)).set ↔ _
  rw [View.set_slice_whole, Rect.mem_set_unit]
  exact Iff.rfl

/-- The 128 blocks tile the rows: row `r` is in the block of point `r / 4096`. -/
theorem cover (i : S524288x128.Idx) :
    ∃ t : Fin cfg0.N, (cfg0.win 3).flush t = true ∧ i ∈ ((cfg0.win 3).blk t).view.set := by
  have hi0 : (i 0).val < 524288 := (i 0).isLt
  have hi1 : (i 1).val < 128 := (i 1).isLt
  have hN : cfg0.N = 128 := N_0
  obtain ⟨t, ht⟩ : ∃ t : Fin cfg0.N, t.val = (i 0).val / 4096 := ⟨⟨(i 0).val / 4096, by rw [hN]; omega⟩, rfl⟩
  obtain ⟨-, -, -, -, -, -, e0, e1⟩ := index_facts t
  refine ⟨t, flush0_3 t, ?_⟩
  rw [mem_block]
  intro a
  match a with
  | ⟨0, _⟩ =>
    show win0_3.index t (0 : Fin 2) * 4096 ≤ (i 0).val ∧ (i 0).val < win0_3.index t (0 : Fin 2) * 4096 + 4096
    rw [e0, ht]; omega
  | ⟨1, _⟩ =>
    show win0_3.index t (1 : Fin 2) * 128 ≤ (i 1).val ∧ (i 1).val < win0_3.index t (1 : Fin 2) * 128 + 128
    rw [e1]; omega

/-- THE RESULT ARRAY after the run is the perceptron of the launch contents. -/
theorem final (c : Dev nD) : (dats m 0 c).arrAt 3 cfg0.N = result m c :=
  (dats m 0 c).arrAt_eq_of_cover 3 (result m c) (fun t _ => flushed_eq m c t) cover

/-- THE KERNEL'S RUN: every weakly fair execution terminates with the result array at the perceptron of the five
    arguments and the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.LoraMlp.Blocks

end
-- ==== Proof.LoraReference.lean ====
/-
  The reference computes the low-rank perceptron literally.

  Its seven host operations are: the product `A1 · B1`, its transpose, the batch against that transpose, the square,
  the product `A2 · B2`, its transpose, and the squared hidden values against that transpose. Read one operation at a
  time at an index, each general product is a sum over its one contracted coordinate and each transpose swaps the two
  coordinates, so the result at `(b, o)` is `∑ h, hidden² b h · (A2 · B2) o h` term for term: no algebra is needed on
  this side, only the identification of the composed index functions with indices built from coordinates.
-/
import proofs.«175421_j58978490908683_2_alg».proof.Proof.Gen.ReferenceIdeal.Read
import proofs.«175421_j58978490908683_2_alg».proof.Proof.LoraSpec

noncomputable section

namespace Cert.LoraMlp.Reference

open Cert.ReferenceIdeal Cert.ReferenceIdeal.Read Idealize.ShloMosaic Idealize.ShloMosaic.ValueIdx

/-! ## The composed index functions, at indices built from coordinates -/

/-- The transposed first weight at `(i, h)` reads the product at `(h, i)`, whose left factor is read at `(h, r)`. -/
theorem left_weight1 (i : Fin 128) (h : Fin 512) (r : Fin 16) :
    lidx_main_v0 (idx_main_v1 (ix2 i h)) r = ix2 h r :=
  funext fun a => Fin.ext (by match a with | ⟨0, _⟩ => rfl | ⟨1, _⟩ => rfl)

/-- and whose right factor is read at `(r, i)`. -/
theorem right_weight1 (i : Fin 128) (h : Fin 512) (r : Fin 16) :
    ridx_main_v0 (idx_main_v1 (ix2 i h)) r = ix2 r i :=
  funext fun a => Fin.ext (by match a with | ⟨0, _⟩ => rfl | ⟨1, _⟩ => rfl)

/-- The transposed second weight at `(h, o)` reads the product at `(o, h)`, whose left factor is read at `(o, r)`. -/
theorem left_weight2 (h : Fin 512) (o : Fin 128) (r : Fin 16) :
    lidx_main_v4 (idx_main_v5 (ix2 h o)) r = ix2 o r :=
  funext fun a => Fin.ext (by match a with | ⟨0, _⟩ => rfl | ⟨1, _⟩ => rfl)

/-- and whose right factor is read at `(r, h)`. -/
theorem right_weight2 (h : Fin 512) (o : Fin 128) (r : Fin 16) :
    ridx_main_v4 (idx_main_v5 (ix2 h o)) r = ix2 r h :=
  funext fun a => Fin.ext (by match a with | ⟨0, _⟩ => rfl | ⟨1, _⟩ => rfl)

/-- The hidden product at `(b, h)` reads the batch at `(b, i)`. -/
theorem left_hidden (b : Fin 524288) (h : Fin 512) (i : Fin 128) :
    lidx_main_v2 (ix2 b h) i = ix2 b i :=
  funext fun a => Fin.ext (by match a with | ⟨0, _⟩ => rfl | ⟨1, _⟩ => rfl)

/-- and the transposed first weight at `(i, h)`. -/
theorem right_hidden (b : Fin 524288) (h : Fin 512) (i : Fin 128) :
    ridx_main_v2 (ix2 b h) i = ix2 i h :=
  funext fun a => Fin.ext (by match a with | ⟨0, _⟩ => rfl | ⟨1, _⟩ => rfl)

/-- The output product at `(b, o)` reads the squared hidden values at `(b, h)`. -/
theorem left_out (b : Fin 524288) (o : Fin 128) (h : Fin 512) :
    lidx_main_v6 (ix2 b o) h = ix2 b h :=
  funext fun a => Fin.ext (by match a with | ⟨0, _⟩ => rfl | ⟨1, _⟩ => rfl)

/-- and the transposed second weight at `(h, o)`. -/
theorem right_out (b : Fin 524288) (o : Fin 128) (h : Fin 512) :
    ridx_main_v6 (ix2 b o) h = ix2 h o :=
  funext fun a => Fin.ext (by match a with | ⟨0, _⟩ => rfl | ⟨1, _⟩ => rfl)

/-! ## The stages -/

/-- The transposed first weight at `(i, h)` is entry `(h, i)` of `A1 · B1`. -/
theorem weight1_read (A1 : FVec Ideal S512x16 .f32) (B1 : FVec Ideal S16x128 .f32) (i : Fin 128) (h : Fin 512) :
    val_main_v1 (F := Ideal) A1 B1 (ix2 i h) = weight1 A1 B1 h i := by
  rw [val_main_v1_apply, val_main_v0_apply]
  exact Finset.sum_congr rfl fun r _ => by rw [left_weight1, right_weight1]

/-- The transposed second weight at `(h, o)` is entry `(o, h)` of `A2 · B2`. -/
theorem weight2_read (A2 : FVec Ideal S128x16 .f32) (B2 : FVec Ideal S16x512 .f32) (h : Fin 512) (o : Fin 128) :
    val_main_v5 (F := Ideal) A2 B2 (ix2 h o) = weight2 A2 B2 o h := by
  rw [val_main_v5_apply, val_main_v4_apply]
  exact Finset.sum_congr rfl fun r _ => by rw [left_weight2, right_weight2]

/-- The batch against the transposed first weight, at `(b, h)`, is hidden value `h` of row `b`. -/
theorem hidden_read (x : FVec Ideal S524288x128 .f32) (A1 : FVec Ideal S512x16 .f32) (B1 : FVec Ideal S16x128 .f32)
    (b : Fin 524288) (h : Fin 512) :
    val_main_v2 (F := Ideal) x A1 B1 (ix2 b h) = hidden x A1 B1 b h := by
  rw [val_main_v2_apply]
  exact Finset.sum_congr rfl fun i _ => by rw [left_hidden, right_hidden, weight1_read]

/-- THE REFERENCE'S RESULT is the perceptron, index by index. -/
theorem result_eq (x : FVec Ideal S524288x128 .f32) (A1 : FVec Ideal S512x16 .f32) (B1 : FVec Ideal S16x128 .f32)
    (A2 : FVec Ideal S128x16 .f32) (B2 : FVec Ideal S16x512 .f32) :
    val_main_v6 (F := Ideal) x A1 B1 A2 B2 = mlp x A1 B1 A2 B2 := by
  funext j
  obtain ⟨b, o, rfl⟩ : ∃ (b : Fin 524288) (o : Fin 128), j = ix2 b o := ⟨j 0, j 1, eq_ix2 j⟩
  rw [val_main_v6_apply, mlp_ix2]
  refine Finset.sum_congr rfl fun h _ => ?_
  rw [left_out, right_out, val_main_v3_apply, hidden_read, weight2_read]
  rfl

end Cert.LoraMlp.Reference

end
-- ==== Proof.lean ====
/-
  The kernel and its reference compute one function: a two-layer perceptron with rank-16 weights.

  For a batch `x` (524288 × 128) and factors `A1` (512 × 16), `B1` (16 × 128), `A2` (128 × 16), `B2` (16 × 512) the
  reference forms `W1 = A1 · B1`, `h = x · W1ᵀ`, squares `h` entry by entry, forms `W2 = A2 · B2` and returns
  `h² · W2ᵀ`. The kernel's host side forms the transposed weights directly, `B1ᵀ · A1ᵀ` and `B2ᵀ · A2ᵀ`, and the
  kernel proper takes 4096 rows of `x` per grid point, multiplies them by the first prepared weight into a zero
  accumulator, squares, multiplies by the second prepared weight into a zero accumulator and writes the 4096 rows of the
  result back. On the extended reals with exact operations every change of float format is the identity, so both
  programs return, at `(b, o)`,

      ∑ h, (∑ i, x b i · W1 h i)² · W2 o h,      W1 h i = ∑ r, A1 h r · B1 r i,   W2 o h = ∑ r, A2 o r · B2 r h,

  the kernel with the two factors of each term of `W1` and `W2` in the other order. Commutativity of the product on
  the extended reals holds without exception, so the finiteness of the inputs is never used.

  The modules: `LoraSpec` states the function; `LoraReference` reads the reference's seven operations at an index;
  `LoraWeights` reads the host's prepared weights at an index and `LoraEntry` finds them in the kernel's windows at the
  launch; `LoraBody` reads the kernel body's stored value at an index of a block; `LoraBlocks` puts the 128 blocks
  together. The ideal pass rewrote nothing, so `preserves` is `True`.
-/
import proofs.«175421_j58978490908683_2_alg».proof.Defs
import proofs.«175421_j58978490908683_2_alg».proof.Proof.Gen.Kernel
import proofs.«175421_j58978490908683_2_alg».proof.Proof.Gen.Kernel.Skeleton
import proofs.«175421_j58978490908683_2_alg».proof.Proof.Gen.Kernel.Launch
import proofs.«175421_j58978490908683_2_alg».proof.Proof.Gen.Kernel.Points
import proofs.«175421_j58978490908683_2_alg».proof.Proof.Gen.Kernel.Frame
import proofs.«175421_j58978490908683_2_alg».proof.Proof.Gen.KernelIdeal
import proofs.«175421_j58978490908683_2_alg».proof.Proof.Gen.KernelIdeal.Skeleton
import proofs.«175421_j58978490908683_2_alg».proof.Proof.Gen.KernelIdeal.Launch
import proofs.«175421_j58978490908683_2_alg».proof.Proof.Gen.KernelIdeal.Points
import proofs.«175421_j58978490908683_2_alg».proof.Proof.Gen.KernelIdeal.Frame
import proofs.«175421_j58978490908683_2_alg».proof.Proof.Gen.ReferenceIdeal
import proofs.«175421_j58978490908683_2_alg».proof.Proof.Gen.Pre_finite_inputs
import proofs.«175421_j58978490908683_2_alg».proof.Proof.Gen.KernelIdeal.Value
import proofs.«175421_j58978490908683_2_alg».proof.Proof.Gen.ReferenceIdeal.Run
import proofs.«175421_j58978490908683_2_alg».proof.Proof.Gen.ReferenceIdeal.Read
import proofs.«175421_j58978490908683_2_alg».proof.Proof.LoraBlocks
import proofs.«175421_j58978490908683_2_alg».proof.Proof.LoraReference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments, the kernel's result array ends at the perceptron of its arguments
    (`LoraBlocks.run`) and the reference's at its seven operations' term of its own, which is the perceptron too
    (`LoraReference.result_eq`): equal arrays. -/
theorem algebraic : Cert.algebraic_KernelIdeal_ReferenceIdeal := by
  intro m ρ m' ρ' _ hagree
  refine ⟨fun c => Cert.LoraMlp.Blocks.result m c, Cert.LoraMlp.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.LoraMlp.Reference.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
